-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩

abbrev nBuf : Space → Nat
  | .hbm => 31
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S64x64, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The node update of a mean-aggregating graph layer, as ONE function of its four matrices.

  For node features `x` and averaged neighbour features `n` (both `M × 64`) and two `64 × 64` weight matrices
  `ws`, `wn` stored output-major, the entry of the update at row `r`, column `c` is, on the extended reals,

      ∑ k, x (r, k) · ws (c, k)  +  ∑ k, n (r, k) · wn (c, k) :

  the products of the two feature matrices with the TRANSPOSED weights, added. The row count `M` is a parameter, so a
  block of rows and the whole array are two instances of the same function, and an entry depends on one row of each
  feature matrix and one row of each weight matrix only (`proj_rows`): a block of rows of the update is the update of
  that block of rows.
-/
import Idealize.ShloMosaic.PureOps.Ideal.Laws
import Idealize.ShloMosaic.Lib.ValueIdx

noncomputable section

namespace Cert.Sage

open Idealize.ShloMosaic Idealize.ShloMosaic.ValueIdx

/-- The update of `M` nodes: `x · wsᵀ + n · wnᵀ`, entry by entry. -/
def proj (M : Nat) (x n : (⟨2, ![M, 64]⟩ : Shape).Idx → EReal) (ws wn : (⟨2, ![64, 64]⟩ : Shape).Idx → EReal) :
    (⟨2, ![M, 64]⟩ : Shape).Idx → EReal :=
  fun j => (∑ k : Fin 64, x (ix2 (j 0) k) * ws (ix2 (j 1) k)) + (∑ k : Fin 64, n (ix2 (j 0) k) * wn (ix2 (j 1) k))

/-- An entry of the update reads one row of each feature matrix and one row of each weight matrix: two updates whose
    operands agree on those rows agree at the entry, whatever their row counts. -/
theorem proj_rows {M M' : Nat} (x n : (⟨2, ![M, 64]⟩ : Shape).Idx → EReal) (X N : (⟨2, ![M', 64]⟩ : Shape).Idx → EReal)
    (ws wn ws' wn' : (⟨2, ![64, 64]⟩ : Shape).Idx → EReal)
    (j : (⟨2, ![M, 64]⟩ : Shape).Idx) (i : (⟨2, ![M', 64]⟩ : Shape).Idx)
    (hx : ∀ k : Fin 64, x (ix2 (j 0) k) = X (ix2 (i 0) k))
    (hn : ∀ k : Fin 64, n (ix2 (j 0) k) = N (ix2 (i 0) k))
    (hs : ∀ k : Fin 64, ws (ix2 (j 1) k) = ws' (ix2 (i 1) k))
    (hw : ∀ k : Fin 64, wn (ix2 (j 1) k) = wn' (ix2 (i 1) k)) :
    proj M x n ws wn j = proj M' X N ws' wn' i := by
  simp only [proj, hx, hn, hs, hw]

end Cert.Sage

end
-- ==== Proof.RefValue.lean ====
/-
  The reference's result is the update `Cert.Sage.proj` of its arguments and its own averaged neighbour features.

  The reference transposes each weight matrix on the host, contracts the node features and the averaged neighbour
  features (its stage `val_main_v18`) with the transposed weights, and adds. Read at an entry `(r, c)`: each contraction
  is the sum over the 64 shared columns of the feature at `(r, k)` times the transposed weight at `(k, c)`, which is the
  weight at `(c, k)`.
-/
import proofs.«115524_j1898375544833_1_alg».proof.Proof.Gen.ReferenceIdeal.Read
import proofs.«115524_j1898375544833_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage, as the update of its arguments and of its averaged neighbour features. -/
theorem result_eq (x0 : (⟨S100000x64, .f32⟩ : BufTy).Contents (Elt Ideal)) (x1 x2 : (⟨S1600000, .i32⟩ : BufTy).Contents (Elt Ideal))
    (x3 x4 : (⟨S64x64, .f32⟩ : BufTy).Contents (Elt Ideal)) :
    val_main_v23 (F := Ideal) x0 x1 x2 x3 x4 = Cert.Sage.proj 100000 x0 (val_main_v18 (F := Ideal) x0 x1 x2) x3 x4 := by
  funext i
  have el : ∀ k : Fin 64, lidx_main_v20 i k = ix2 (i 0) k := fun k => funext fun a => Fin.ext (by
    match a with
    | ⟨0, _⟩ => rfl
    | ⟨1, _⟩ => rfl)
  have er : ∀ k : Fin 64, idx_main_v19 (ridx_main_v20 i k) = ix2 (i 1) k := fun k => funext fun a => Fin.ext (by
    match a with
    | ⟨0, _⟩ => rfl
    | ⟨1, _⟩ => rfl)
  have el' : ∀ k : Fin 64, lidx_main_v22 i k = ix2 (i 0) k := fun k => funext fun a => Fin.ext (by
    match a with
    | ⟨0, _⟩ => rfl
    | ⟨1, _⟩ => rfl)
  have er' : ∀ k : Fin 64, idx_main_v21 (ridx_main_v22 i k) = ix2 (i 1) k := fun k => funext fun a => Fin.ext (by
    match a with
    | ⟨0, _⟩ => rfl
    | ⟨1, _⟩ => rfl)
  rw [val_main_v23_apply, val_main_v20_apply, val_main_v22_apply]
  simp only [val_main_v19_apply, val_main_v21_apply, el, er, el', er', Ideal.addf_def, Cert.Sage.proj]
  rfl

end Cert.ReferenceIdeal.RefValue

end
-- ==== Proof.HostPrefix.lean ====
/-
  The averaged neighbour features the kernel's region finds are the reference's.

  Before its one region the kernel's program runs, on the host, the same twenty-five operations as the reference: the
  source indices wrapped into range, the gather of the source rows, the scatter-add of the gathered rows and of ones by
  destination, the degree clamped below by one and the quotient. So the array the second window stages is the
  reference's stage `val_main_v18` of the launch contents of the features and of the two index arrays: the two
  programs' operation lists, read back, are one term.
-/
import proofs.«115524_j1898375544833_1_alg».proof.Proof.Gen.KernelIdeal.Frame
import proofs.«115524_j1898375544833_1_alg».proof.Proof.Gen.ReferenceIdeal.Read

noncomputable section

namespace Cert.KernelIdeal.HostPrefix

open Cert.KernelIdeal Cert.KernelIdeal.Gen Idealize.ShloMosaic Idealize.ShloMosaic.TcCoe Idealize.SL.Sem Idealize.ShloMosaic.StableHlo

set_option maxHeartbeats 2000000 in
/-- What the region finds in the averaged-neighbour array, as the reference's stage of the launch memory. -/
theorem neigh_eq (m : (ℓ : Loc nD τ sig) → Buf (Elt Ideal) ℓ) (c : Dev nD) :
    (V m c main_v18 : S100000x64.Idx → EReal)
      = Cert.ReferenceIdeal.Read.val_main_v18 (F := Ideal) (m ((c : Thread nD τ).loc main_arg0))
          (m ((c : Thread nD τ).loc main_arg1)) (m ((c : Thread nD τ).loc main_arg2)) := by
  dsimp only [Gen.V, Gen.hostOps0]
  after_results_simp
  rfl

end Cert.KernelIdeal.HostPrefix

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Payload.lean ====
/-
  What the kernel body stores, entry by entry.

  The body loads a block of 5000 rows of the node features and of the averaged neighbour features and the two weight
  matrices whole, narrows all four (the identity on the extended reals), transposes each weight matrix, multiplies each
  feature block with its transposed weights into a zero accumulator and adds the two products. A product into a zero
  accumulator is the plain contraction sum over the 64 shared columns, and the transposed weight at `(k, c)` is the
  weight at `(c, k)`; so the stored block is the update `Cert.Sage.proj` of the 5000 loaded rows.
-/
import proofs.«115524_j1898375544833_1_alg».proof.Proof.Gen.KernelIdeal.Skeleton
import proofs.«115524_j1898375544833_1_alg».proof.Proof.Spec
import proofs.«115524_j1898375544833_1_alg».proof.Proof.LibPlainDot
import Idealize.ShloMosaic.Lib.Pipeline.Value

noncomputable section

namespace Cert.KernelIdeal.Payload

open Cert.KernelIdeal Cert.KernelIdeal.Gen Idealize.ShloMosaic Idealize.ShloMosaic.ValueIdx

/-- A transposed `64 × 64` matrix at `(k, c)` is the matrix at `(c, k)`. -/
theorem transpose_at {φ : FTy} (w : FVec Ideal S64x64 φ) (h : S64x64.Transposes [1, 0] S64x64) (k c : Fin 64) :
    transpose S64x64 [1, 0] w h (ix2 k c) = w (ix2 c k) :=
  transpose_apply [1, 0] w h (ix2 k c) (ix2 c k) (fun b => match b with
    | ⟨0, _⟩ => rfl
    | ⟨1, _⟩ => rfl)

/-- One of the body's two products at an entry: the feature block's row against the weight matrix's row. -/
theorem product_at (x : FVec Ideal S5000x64 .bf16) (w : FVec Ideal S64x64 .bf16) (j : S5000x64.Idx) :
    matmul dot_S5000x64_S64x64_S5000x64_1_0_0_1_n_n none x
        (transpose S64x64 [1, 0] w transposes_S64x64_p1_0_S64x64) (constant S5000x64 .f32 0x00000000#32) j
      = ∑ k : Fin 64, x (ix2 (j 0) k) * w (ix2 (j 1) k) := by
  refine (Cert.PlainDot.matmul_zero_apply 5000 64 64 none x _ j).trans ?_
  refine Finset.sum_congr rfl fun k _ => ?_
  exact congrArg (x (ix2 (j 0) k) * ·) (transpose_at w _ k (j 1))

/-- The stored block is the update of the loaded rows. -/
theorem pay_eq (x0 x1 : Vec Ideal S5000x64 .f32) (x2 x3 : Vec Ideal S64x64 .f32) :
    k0_pay1 (F := Ideal) x0 x1 x2 x3 = Cert.Sage.proj 5000 x0 x1 x2 x3 := by
  funext j
  unfold k0_pay1
  dsimp only
  rw [addf_apply, product_at, product_at, shapeCast_self]
  rfl

end Cert.KernelIdeal.Payload

end
-- ==== Proof.KernelArray.lean ====
/-
  From the blocks the grid points write back to the kernel's whole result array.

  The grid has twenty points. Point `t` stages rows `5000 t … 5000 t + 4999` of the node features and of the averaged
  neighbour features and both weight matrices whole, and writes back the same rows of the result. What it writes is the
  update `Cert.Sage.proj` of the rows it loaded, and an entry of the update reads one feature row and one weight row
  only; so point `t` writes back rows `5000 t …` of the update of the WHOLE arrays. Row `r` of the result lies in the
  block of point `r / 5000`, so the twenty blocks cover the array and it ends holding the update of the arrays the
  region found: the launch contents of the features and the weights, and the host's averaged neighbour features.
-/
import proofs.«115524_j1898375544833_1_alg».proof.Proof.Gen.KernelIdeal.Value
import proofs.«115524_j1898375544833_1_alg».proof.Proof.Payload

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The update of the four arrays as the region finds them. -/
def whole (c : Dev nD) : S100000x64.Idx → Elt Ideal .f32 :=
  Cert.Sage.proj 100000 (V m c (Pipeline.arrRef spec0 0)) (V m c (Pipeline.arrRef spec0 1))
    (V m c (Pipeline.arrRef spec0 2)) (V m c (Pipeline.arrRef spec0 3))

/-- The printed index maps over the twenty points: the two feature windows move with the result window along the rows
    and stay at column block zero, and the weight windows never move. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every one of the twenty row blocks is some point's. -/
theorem idx_onto : ∀ q : Fin 20, ∃ t : Fin cfg0.N, win0_4.index t = ![q.val, 0] :=
  (by decide +kernel : ∀ q : Fin 20, ∃ t : Fin grid0.N, win0_4.index t = ![q.val, 0])

/-- Over ANY four arrays: the update of the rows point `t` stages, cut to its block, is block `t` of the update of
    the whole arrays. An entry `(r, c)` of the block reads row `r` of each staged feature block, which is row
    `5000 t + r` of the feature array, and row `c` of each weight matrix; the result's block `t` starts at row `5000 t`. -/
theorem block_eq (A0 A1 : S100000x64.Idx → Elt Ideal .f32) (A2 A3 : S64x64.Idx → Elt Ideal .f32) (t : Fin cfg0.N) :
    (cfg0.win 4).cut (grid0.coords t)
        (Cert.Sage.proj 5000 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (Cert.Sage.proj 100000 A0 A1 A2 A3) := by
  obtain ⟨e0, e1, e2, e3, e4, e5, e6, e7, e8⟩ := idx_facts t
  funext j
  show Cert.Sage.proj 5000 (((cfg0.win 0).blk t).view.read (Elt Ideal) A0) (((cfg0.win 1).blk t).view.read (Elt Ideal) A1)
      (((cfg0.win 2).blk t).view.read (Elt Ideal) A2) (((cfg0.win 3).blk t).view.read (Elt Ideal) A3) j
    = Cert.Sage.proj 100000 A0 A1 A2 A3 (((cfg0.win 4).blk t).view.emb j)
  refine Cert.Sage.proj_rows _ _ _ _ _ _ _ _ j _ (fun k => ?_) (fun k => ?_) (fun k => ?_) (fun k => ?_)
  · show A0 (((cfg0.win 0).blk t).view.emb (ix2 (j 0) k)) = A0 (ix2 ((((cfg0.win 4).blk t).view.emb j) 0) k)
    refine congrArg A0 (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * k.val = k.val; omega
  · show A1 (((cfg0.win 1).blk t).view.emb (ix2 (j 0) k)) = A1 (ix2 ((((cfg0.win 4).blk t).view.emb j) 0) k)
    refine congrArg A1 (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 64 + 1 * k.val = k.val; omega
  · show A2 (((cfg0.win 2).blk t).view.emb (ix2 (j 1) k)) = A2 (ix2 ((((cfg0.win 4).blk t).view.emb j) 1) k)
    refine congrArg A2 (funext fun a => Fin.ext ?_)
    match a with
    | ⟨0, _⟩ => show win0_2.index t (0 : Fin 2) * 64 + 1 * (j 1).val = win0_4.index t (1 : Fin 2) * 64 + 1 * (j 1).val; omega
    | ⟨1, _⟩ => show win0_2.index t (1 : Fin 2) * 64 + 1 * k.val = k.val; omega
  · show A3 (((cfg0.win 3).blk t).view.emb (ix2 (j 1) k)) = A3 (ix2 ((((cfg0.win 4).blk t).view.emb j) 1) k)
    refine congrArg A3 (funext fun a => Fin.ext ?_)
    match a with
    | ⟨0, _⟩ => show win0_3.index t (0 : Fin 2) * 64 + 1 * (j 1).val = win0_4.index t (1 : Fin 2) * 64 + 1 * (j 1).val; omega
    | ⟨1, _⟩ => show win0_3.index t (1 : Fin 2) * 64 + 1 * k.val = k.val; omega

/-- WHAT POINT `t` WRITES BACK is block `t` of the update of the whole arrays. -/
theorem flushed_eq (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  unfold out0_4
  rw [View.canon_unit_zero zero_offsets]
  simp only [View.ld_unit_zero (S := S5000x64) zero_offsets, View.ld_unit_zero (S := S64x64) zero_offsets]
  rw [Payload.pay_eq]
  unfold iblk whole
  exact block_eq _ _ _ _ t

/-- An index of the result array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v19).slice (win0_4.rect t)).set ↔ _
  rw [View.set_slice_whole, Rect.mem_set_unit]
  exact Iff.rfl

/-- The blocks cover the array: row `r` is in the block of the point whose row block is `r / 5000`. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the run is the update of the arrays the region found. -/
theorem final (c : Dev nD) : (dats m 0 c).arrAt 4 cfg0.N = whole m c :=
  (dats m 0 c).arrAt_eq_of_cover 4 (whole m c) (fun t _ => flushed_eq m c t) cover

end Cert.KernelIdeal.Whole

end
-- ==== Proof.KernelRun.lean ====
/-
  The idealized kernel's run, with its result array named as a function of the launch arrays.

  After the run the result array is the update `Cert.Sage.proj` of the four arrays the region found (KernelArray). No
  host operation before the region writes an argument, so three of them are the launch contents of the node features
  and of the two weight matrices; the fourth, the averaged neighbour features, is the reference's own stage of the
  launch contents of the features and the two index arrays (HostPrefix).
-/
import proofs.«115524_j1898375544833_1_alg».proof.Proof.Gen.KernelIdeal.Value
import proofs.«115524_j1898375544833_1_alg».proof.Proof.HostPrefix
import proofs.«115524_j1898375544833_1_alg».proof.Proof.KernelArray

noncomputable section

namespace Cert.KernelIdeal.Whole

open Cert.KernelIdeal Cert.KernelIdeal.Gen Idealize.ShloMosaic Idealize.ShloMosaic.TcCoe Idealize.SL.Sem

/-- The update of the arrays the region finds is the update of the launch arrays and of the shared average. -/
theorem whole_eq (m : (ℓ : Loc nD τ sig) → Buf (Elt Ideal) ℓ) (c : Dev nD) :
    whole m c
      = Cert.Sage.proj 100000 (m ((c : Thread nD τ).loc main_arg0))
          (Cert.ReferenceIdeal.Read.val_main_v18 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4)) := by
  have h0 : V m c (Pipeline.arrRef spec0 0) = m ((c : Thread nD τ).loc main_arg0) := V_main_arg0 m c
  have h1 : (V m c (Pipeline.arrRef spec0 1) : S100000x64.Idx → EReal)
      = Cert.ReferenceIdeal.Read.val_main_v18 (F := Ideal) (m ((c : Thread nD τ).loc main_arg0))
          (m ((c : Thread nD τ).loc main_arg1)) (m ((c : Thread nD τ).loc main_arg2)) := HostPrefix.neigh_eq m c
  have h2 : V m c (Pipeline.arrRef spec0 2) = m ((c : Thread nD τ).loc main_arg3) := V_main_arg3 m c
  have h3 : V m c (Pipeline.arrRef spec0 3) = m ((c : Thread nD τ).loc main_arg4) := V_main_arg4 m c
  unfold whole
  rw [h0, h1, h2, h3]

/-- Every weakly fair execution of the idealized kernel ends with the result array at the update of the launch
    arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v19)
        = Cert.Sage.proj 100000 (m ((c : Thread nD τ).loc main_arg0))
            (Cert.ReferenceIdeal.Read.val_main_v18 (F := Ideal) (m ((c : Thread nD τ).loc main_arg0))
              (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((final m c).trans (whole_eq m c)), (h c).2⟩)
    (Cert.KernelIdeal.Value.run_blocks (F := Ideal) m ρ)

end Cert.KernelIdeal.Whole

end
-- ==== Proof.lean ====
/-
  The kernel computes the node update of a mean-aggregating graph layer, and so does the reference.

  Both programs first average, on the host and by the same operations, the features of each node's in-neighbours
  (gather the source rows, add them up by destination, divide by the degree clamped below by one). The reference then
  forms `x · wsᵀ + n · wnᵀ` with two host contractions. The kernel forms it in one region of twenty points: each point
  loads 5000 rows of the features `x` and of the averages `n` and both weight matrices, narrows them (the identity on
  the extended reals), and stores the two products against the transposed weights, added.

  On the extended reals both results are the function `Cert.Sage.proj` of the launch arrays and of the shared average
  (Spec): for the reference by reading its two contractions at an entry (RefValue); for the kernel because a block of
  rows of the update is the update of that block of rows (Payload, KernelArray), the blocks cover the result, and the
  array of averages the region finds is the reference's own stage of the launch arrays (HostPrefix, KernelRun). No
  algebraic law is needed beyond reading each contraction as its sum, so the finiteness of the inputs is never used.
  The kernels' frames are the generated ones, the reference's is its generated run with the result dropped, and the
  idealization rewrote no operation, so there is nothing to preserve.
-/
import proofs.«115524_j1898375544833_1_alg».proof.Defs
import proofs.«115524_j1898375544833_1_alg».proof.Proof.Gen.Kernel
import proofs.«115524_j1898375544833_1_alg».proof.Proof.Gen.Kernel.Skeleton
import proofs.«115524_j1898375544833_1_alg».proof.Proof.Gen.Kernel.Launch
import proofs.«115524_j1898375544833_1_alg».proof.Proof.Gen.Kernel.Points
import proofs.«115524_j1898375544833_1_alg».proof.Proof.Gen.Kernel.Frame
import proofs.«115524_j1898375544833_1_alg».proof.Proof.Gen.KernelIdeal
import proofs.«115524_j1898375544833_1_alg».proof.Proof.Gen.KernelIdeal.Skeleton
import proofs.«115524_j1898375544833_1_alg».proof.Proof.Gen.KernelIdeal.Launch
import proofs.«115524_j1898375544833_1_alg».proof.Proof.Gen.KernelIdeal.Points
import proofs.«115524_j1898375544833_1_alg».proof.Proof.Gen.KernelIdeal.Frame
import proofs.«115524_j1898375544833_1_alg».proof.Proof.Gen.ReferenceIdeal
import proofs.«115524_j1898375544833_1_alg».proof.Proof.Gen.Pre_finite_inputs
import proofs.«115524_j1898375544833_1_alg».proof.Proof.Gen.KernelIdeal.Value
import proofs.«115524_j1898375544833_1_alg».proof.Proof.Gen.ReferenceIdeal.Run
import proofs.«115524_j1898375544833_1_alg».proof.Proof.Gen.ReferenceIdeal.Read
import proofs.«115524_j1898375544833_1_alg».proof.Proof.RefValue
import proofs.«115524_j1898375544833_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both runs end at the update of the same arrays: the kernel's run names its
    result so, and the reference's last stage is that update of its own arguments, which are the kernel's. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal) _ _ _ _ _).trans ?_
  refine (Cert.ReferenceIdeal.RefValue.result_eq _ _ _ _ _).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
